-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32768x64 : Shape := ⟨2, ![32768, 64]⟩
abbrev S1x512x64 : Shape := ⟨3, ![1, 512, 64]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S1x512x64 : S_.BroadcastsInDim S1x512x64 (![] : Fin 0 → Fin S1x512x64.rank)
  reducesTo_S1x512x64_S_d0_1_2 : S1x512x64.ReducesTo [0, 1, 2] S_

variable [Facts]

def fn {F : FTy → Type} [FloatOps F] (main_arg0 : FVec F S32x1024x512 .f32) (main_arg1 : FVec F S32768x64 .f32) (main_arg2 : FVec F S1x512x64 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32768x64 .f32 := Host.absf main_arg1
  let main_cst_0 : FVec F S_ .f32 := constant S_ .f32 0x7F800000#32
  let main_v5 : FVec F S32768x64 .f32 := broadcastInDim S32768x64 ![] bcast_S_S32768x64 main_cst_0
  let main_v6 : IVec S32768x64 1 := cmpf .olt main_v4 main_v5
  let main_c_1 : IVec S_ 1 := constantI S_ 1 1#1
  let main_v7 : IVec S_ 1 := (fun x v => Host.reduce IntOp.andi x v reducesTo_S32768x64_S_d0_1 h_S_) main_v6 main_c_1
  let main_v8 : IVec S_ 1 := andi main_v3 main_v7
  let main_v9 : FVec F S1x512x64 .f32 := Host.absf main_arg2
  let main_cst_2 : FVec F S_ .f32 := constant S_ .f32 0x7F800000#32
  let main_v10 : FVec F S1x512x64 .f32 := broadcastInDim S1x512x64 ![] bcast_S_S1x512x64 main_cst_2
  let main_v11 : IVec S1x512x64 1 := cmpf .olt main_v9 main_v10
  let main_c_3 : IVec S_ 1 := constantI S_ 1 1#1
  let main_v12 : IVec S_ 1 := (fun x v => Host.reduce IntOp.andi x v reducesTo_S1x512x64_S_d0_1_2 h_S_) main_v11 main_c_3
  let main_v13 : IVec S_ 1 := andi main_v8 main_v12
  main_v13
-- ==== Kernel.lean ====
abbrev S32x1024x512 : Shape := ⟨3, ![32, 1024, 512]⟩
abbrev S32768x64 : Shape := ⟨2, ![32768, 64]⟩
abbrev S1x512x64 : Shape := ⟨3, ![1, 512, 64]⟩
abbrev S32x1024x64 : Shape := ⟨3, ![32, 1024, 64]⟩
abbrev S512x64 : Shape := ⟨2, ![512, 64]⟩
abbrev S32x512x64 : Shape := ⟨3, ![32, 512, 64]⟩
abbrev S32x8x128 : Shape := ⟨3, ![32, 8, 128]⟩
abbrev S4x1024x512 : Shape := ⟨3, ![4, 1024, 512]⟩
abbrev S4x1024x64 : Shape := ⟨3, ![4, 1024, 64]⟩
abbrev S4x512x64 : Shape := ⟨3, ![4, 512, 64]⟩
abbrev S4x8x128 : Shape := ⟨3, ![4, 8, 128]⟩
abbrev S4x1024 : Shape := ⟨2, ![4, 1024]⟩
abbrev S4x1024x1 : Shape := ⟨3, ![4, 1024, 1]⟩
abbrev S4x64 : Shape := ⟨2, ![4, 64]⟩
abbrev S4x1x64 : Shape := ⟨3, ![4, 1, 64]⟩
abbrev S4x512 : Shape := ⟨2, ![4, 512]⟩
abbrev S4x512x1 : Shape := ⟨3, ![4, 512, 1]⟩
abbrev S4x1 : Shape := ⟨2, ![4, 1]⟩
abbrev S4x1x1 : Shape := ⟨3, ![4, 1, 1]⟩
abbrev S32x32768 : Shape := ⟨2, ![32, 32768]⟩
abbrev S32x1x1 : Shape := ⟨3, ![32, 1, 1]⟩
abbrev S32 : Shape := ⟨1, ![32]⟩
abbrev S_ : Shape := ⟨0, ![]⟩
abbrev S32x1 : Shape := ⟨2, ![32, 1]⟩

abbrev nBuf : Space → Nat
  | .hbm => 17
  | .vmem => 9
  | .smem => 0
  | _ => 0

abbrev bufTy : (tb : Table) → Fin (tcTables nBuf tb) → BufTy
  | .hbm, ⟨0, _⟩ => ⟨S32x1024x512, .f32⟩
  | .hbm, ⟨1, _⟩ => ⟨S32768x64, .f32⟩
  | .hbm, ⟨2, _⟩ => ⟨S1x512x64, .f32⟩
  | .hbm, ⟨3, _⟩ => ⟨S32x1024x64, .f32⟩
  | .hbm, ⟨4, _⟩ => ⟨S512x64, .f32⟩
  | .hbm, ⟨5, _⟩ => ⟨S32x512x64, .f32⟩
  | .hbm, ⟨6, _⟩ => ⟨S32x8x128, .f32⟩
  | .hbm, ⟨7, _⟩ => ⟨S32x32768, .f32⟩
  | .hbm, ⟨8, _⟩ => ⟨S32x1x1, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S32x1, .f32⟩
  | .hbm, ⟨15, _⟩ => ⟨S32x32768, .f32⟩
  | .hbm, ⟨16, _⟩ => ⟨S32x32768, .f32⟩
  | .local _ .vmem, ⟨0, _⟩ => ⟨S4x1024x512, .f32⟩
  | .local _ .vmem, ⟨1, _⟩ => ⟨S4x1024x512, .f32⟩
  | .local _ .vmem, ⟨2, _⟩ => ⟨S4x1024x64, .f32⟩
  | .local _ .vmem, ⟨3, _⟩ => ⟨S4x1024x64, .f32⟩
  | .local _ .vmem, ⟨4, _⟩ => ⟨S512x64, .f32⟩
  | .local _ .vmem, ⟨5, _⟩ => ⟨S4x512x64, .f32⟩
  | .local _ .vmem, ⟨6, _⟩ => ⟨S4x512x64, .f32⟩
  | .local _ .vmem, ⟨7, _⟩ => ⟨S4x8x128, .f32⟩
  | .local _ .vmem, ⟨8, _⟩ => ⟨S4x8x128, .f32⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32768x64_S32x1024x64 : S32768x64.ShapeCasts S32x1024x64
  shapeCasts_S1x512x64_S512x64 : S1x512x64.ShapeCasts S512x64
  inb_S4x1024x64_S4x1024x64_0_0_0 : ∀ a, (![0, 0, 0] : Fin 3 → Nat) a + S4x1024x64.size a ≤ S4x1024x64.size a
  h_S4x1024x64 : 0 < S4x1024x64.numel
  shapeCasts_S4x1024x64_S4x1024x64 : S4x1024x64.ShapeCasts S4x1024x64
  reduces_S4x1024x64_S4x1024 : S4x1024x64.Reduces [2] S4x1024
  shapeCasts_S4x1024_S4x1024x1 : S4x1024.ShapeCasts S4x1024x1
  broadcasts_S4x1024x1_S4x1024x64 : S4x1024x1.Broadcasts S4x1024x64
  reduces_S4x1024x64_S4x64 : S4x1024x64.Reduces [1] S4x64
  inb_S4x1024x512_S4x1024x512_0_0_0 : ∀ a, (![0, 0, 0] : Fin 3 → Nat) a + S4x1024x512.size a ≤ S4x1024x512.size a
  h_S4x1024x512 : 0 < S4x1024x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  shapeCasts_S512x64_S512x64 : S512x64.ShapeCasts S512x64
  shapeCasts_S4x64_S4x1x64 : S4x64.ShapeCasts S4x1x64
  shapeCasts_S512x64_S1x512x64 : S512x64.ShapeCasts S1x512x64
  broadcasts_S4x1x64_S4x512x64 : S4x1x64.Broadcasts S4x512x64
  broadcasts_S1x512x64_S4x512x64 : S1x512x64.Broadcasts S4x512x64
  reduces_S4x512x64_S4x64 : S4x512x64.Reduces [1] S4x64
  inb_S4x512x64_S4x512x64_0_0_0 : ∀ a, (![0, 0, 0] : Fin 3 → Nat) a + S4x512x64.size a ≤ S4x512x64.size a
  h_S4x512x64 : 0 < S4x512x64.numel
  reduces_S4x512x64_S4x512 : S4x512x64.Reduces [2] S4x512
  shapeCasts_S4x512_S4x512x1 : S4x512.ShapeCasts S4x512x1
  reduces_S4x512x1_S4x1 : S4x512x1.Reduces [1] S4x1
  shapeCasts_S4x1_S4x1x1 : S4x1.ShapeCasts S4x1x1
  shapeCasts_S4x1x1_S4x1x1 : S4x1x1.ShapeCasts S4x1x1
  broadcasts_S4x1x1_S4x8x128 : S4x1x1.Broadcasts S4x8x128
  inb_S4x8x128_S4x8x128_0_0_0 : ∀ a, (![0, 0, 0] : Fin 3 → Nat) a + S4x8x128.size a ≤ S4x8x128.size a
  h_S4x8x128 : 0 < S4x8x128.numel
  shapeCasts_S32x512x64_S32x32768 : S32x512x64.ShapeCasts S32x32768
  slices_S32x8x128_S32x1x1_0_0_0 : S32x8x128.Slices ![0, 0, 0] S32x1x1
  shapeCasts_S32x1x1_S32 : S32x1x1.ShapeCasts S32
  bcast_S_S32 : S_.BroadcastsInDim S32 (![] : Fin 0 → Fin S32.rank)
  bcast_S32_S32x1_0 : S32.BroadcastsInDim S32x1 (![0] : Fin 1 → Fin S32x1.rank)
  bcast_S32x1_S32x32768_0_1 : S32x1.BroadcastsInDim S32x32768 (![0, 1] : Fin 2 → Fin S32x32768.rank)
  dot_S4x1024x512_S4x1024x64_S4x512x64_1_1_2_2_0_0_wf : DotDims.WF S4x1024x512 S4x1024x64 S4x512x64 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x1024x512.size a ≤ S32x1024x512.size a
  hwx0_0 : ∀ i : grid0.Coords, EltTy.bits .f32 = 32 ∨ (Rect.block (s := S32x1024x512) S4x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x1024x64.size a ≤ S32x1024x64.size a
  hwx0_1 : ∀ i : grid0.Coords, EltTy.bits .f32 = 32 ∨ (Rect.block (s := S32x1024x64) S4x1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x64.size a ≤ S512x64.size a
  hwx0_2 : ∀ i : grid0.Coords, EltTy.bits .f32 = 32 ∨ (Rect.block (s := S512x64) S512x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512x64.size a ≤ S32x512x64.size a
  hwx0_3 : ∀ i : grid0.Coords, EltTy.bits .f32 = 32 ∨ (Rect.block (s := S32x512x64) S4x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x8x128.size a ≤ S32x8x128.size a
  hwx0_4 : ∀ i : grid0.Coords, EltTy.bits .f32 = 32 ∨ (Rect.block (s := S32x8x128) S4x8x128.size (cc0_transform_4 i) (hinb0_4 i)).WholeWords (EltTy.packing .f32)

variable [Facts₀]

def dot_S4x1024x512_S4x1024x64_S4x512x64_1_1_2_2_0_0 : DotDims S4x1024x512 S4x1024x64 S4x512x64 where
  lhsContracting := [1]
  rhsContracting := [1]
  lhsNonContracting := [2]
  rhsNonContracting := [2]
  lhsBatch := [0]
  rhsBatch := [0]
  wf := dot_S4x1024x512_S4x1024x64_S4x512x64_1_1_2_2_0_0_wf

abbrev win0_0 : Pipeline.Window sig grid0 :=
  Pipeline.Window.ofSpec (Memref.whole main_arg0) S4x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S4x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S4x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S32768x64 : Shape := ⟨2, ![32768, 64]⟩
abbrev S1x512x64 : Shape := ⟨3, ![1, 512, 64]⟩
abbrev S_ : Shape := ⟨0, ![]⟩
abbrev S32768 : Shape := ⟨1, ![32768]⟩
abbrev S32768x1 : Shape := ⟨2, ![32768, 1]⟩
abbrev S32x1024x64 : Shape := ⟨3, ![32, 1024, 64]⟩
abbrev S32x64 : Shape := ⟨2, ![32, 64]⟩
abbrev S32x64x512 : Shape := ⟨3, ![32, 64, 512]⟩
abbrev S512x64 : Shape := ⟨2, ![512, 64]⟩
abbrev S64x512 : Shape := ⟨2, ![64, 512]⟩
abbrev S32x64x1 : Shape := ⟨3, ![32, 64, 1]⟩
abbrev S1x64x512 : Shape := ⟨3, ![1, 64, 512]⟩
abbrev S32x512x64 : Shape := ⟨3, ![32, 512, 64]⟩
abbrev S32x32768 : Shape := ⟨2, ![32, 32768]⟩
abbrev S32 : Shape := ⟨1, ![32]⟩
abbrev S32x1 : Shape := ⟨2, ![32, 1]⟩

abbrev nBuf : Space → Nat
  | .hbm => 51
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32768x64, .f32⟩
  | .hbm, ⟨2, _⟩ => ⟨S1x512x64, .f32⟩
  | .hbm, ⟨3, _⟩ => ⟨S_, .f32⟩
  | .hbm, ⟨4, _⟩ => ⟨S32768, .f32⟩
  | .hbm, ⟨5, _⟩ => ⟨S_, .f32⟩
  | .hbm, ⟨6, _⟩ => ⟨S32768, .f32⟩
  | .hbm, ⟨7, _⟩ => ⟨S32768, .f32⟩
  | .hbm, ⟨8, _⟩ => ⟨S32768x1, .f32⟩
  | .hbm, ⟨9, _⟩ => ⟨S32768x64, .f32⟩
  | .hbm, ⟨10, _⟩ => ⟨S32768x64, .f32⟩
  | .hbm, ⟨11, _⟩ => ⟨S32768x64, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S32768x64, .f32⟩
  | .hbm, ⟨16, _⟩ => ⟨S32768x64, .f32⟩
  | .hbm, ⟨17, _⟩ => ⟨S32x1024x64, .f32⟩
  | .hbm, ⟨18, _⟩ => ⟨S_, .f32⟩
  | .hbm, ⟨19, _⟩ => ⟨S32x64, .f32⟩
  | .hbm, ⟨20, _⟩ => ⟨S32x64x512, .f32⟩
  | .hbm, ⟨21, _⟩ => ⟨S512x64, .f32⟩
  | .hbm, ⟨22, _⟩ => ⟨S64x512, .f32⟩
  | .hbm, ⟨23, _⟩ => ⟨S32x64x1, .f32⟩
  | .hbm, ⟨24, _⟩ => ⟨S1x64x512, .f32⟩
  | .hbm, ⟨25, _⟩ => ⟨S32x64x512, .f32⟩
  | .hbm, ⟨26, _⟩ => ⟨S32x64x512, .f32⟩
  | .hbm, ⟨27, _⟩ => ⟨S32x64x512, .f32⟩
  | .hbm, ⟨28, _⟩ => ⟨S32x64x512, .f32⟩
  | .hbm, ⟨29, _⟩ => ⟨S32x64x512, .f32⟩
  | .hbm, ⟨30, _⟩ => ⟨S_, .f32⟩
  | .hbm, ⟨31, _⟩ => ⟨S32x64, .f32⟩
  | .hbm, ⟨32, _⟩ => ⟨S32x64x1, .f32⟩
  | .hbm, ⟨33, _⟩ => ⟨S_, .f32⟩
  | .hbm, ⟨34, _⟩ => ⟨S32x64x1, .f32⟩
  | .hbm, ⟨35, _⟩ => ⟨S32x64x1, .f32⟩
  | .hbm, ⟨36, _⟩ => ⟨S32x64x1, .f32⟩
  | .hbm, ⟨37, _⟩ => ⟨S32x64x512, .f32⟩
  | .hbm, ⟨38, _⟩ => ⟨S32x64x512, .f32⟩
  | .hbm, ⟨39, _⟩ => ⟨S32x512x64, .f32⟩
  | .hbm, ⟨40, _⟩ => ⟨S32x32768, .f32⟩
  | .hbm, ⟨41, _⟩ => ⟨S32x32768, .f32⟩
  | .hbm, ⟨42, _⟩ => ⟨S_, .f32⟩
  | .hbm, ⟨43, _⟩ => ⟨S32, .f32⟩
  | .hbm, ⟨44, _⟩ => ⟨S32x1, .f32⟩
  | .hbm, ⟨45, _⟩ => ⟨S_, .f32⟩
  | .hbm, ⟨46, _⟩ => ⟨S32x1, .f32⟩
  | .hbm, ⟨47, _⟩ => ⟨S32x1, .f32⟩
  | .hbm, ⟨48, _⟩ => ⟨S32x1, .f32⟩
  | .hbm, ⟨49, _⟩ => ⟨S32x32768, .f32⟩
  | .hbm, ⟨50, _⟩ => ⟨S32x32768, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_5 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]

class Facts₀ : Prop where
  reducesTo_S32768x64_S32768_d1 : S32768x64.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x64_0_1 : S32768x1.BroadcastsInDim S32768x64 (![0, 1] : Fin 2 → Fin S32768x64.rank)
  shapeCasts_S32768x64_S32x1024x64 : S32768x64.ShapeCasts S32x1024x64
  reducesTo_S32x1024x64_S32x64_d1 : S32x1024x64.ReducesTo [1] S32x64
  shapeCasts_S1x512x64_S512x64 : S1x512x64.ShapeCasts S512x64
  transposes_S512x64_S64x512_1_0 : S512x64.Transposes [1, 0] S64x512
  bcast_S32x64_S32x64x1_0_1 : S32x64.BroadcastsInDim S32x64x1 (![0, 1] : Fin 2 → Fin S32x64x1.rank)
  bcast_S64x512_S1x64x512_1_2 : S64x512.BroadcastsInDim S1x64x512 (![1, 2] : Fin 2 → Fin S1x64x512.rank)
  bcast_S32x64x1_S32x64x512_0_1_2 : S32x64x1.BroadcastsInDim S32x64x512 (![0, 1, 2] : Fin 3 → Fin S32x64x512.rank)
  bcast_S1x64x512_S32x64x512_0_1_2 : S1x64x512.BroadcastsInDim S32x64x512 (![0, 1, 2] : Fin 3 → Fin S32x64x512.rank)
  reducesTo_S32x64x512_S32x64_d2 : S32x64x512.ReducesTo [2] S32x64
  bcast_S_S32x64x1 : S_.BroadcastsInDim S32x64x1 (![] : Fin 0 → Fin S32x64x1.rank)
  transposes_S32x64x512_S32x512x64_0_2_1 : S32x64x512.Transposes [0, 2, 1] S32x512x64
  shapeCasts_S32x512x64_S32x32768 : S32x512x64.ShapeCasts S32x32768
  reducesTo_S32x32768_S32_d1 : S32x32768.ReducesTo [1] S32
  bcast_S32_S32x1_0 : S32.BroadcastsInDim S32x1 (![0] : Fin 1 → Fin S32x1.rank)
  bcast_S_S32x1 : S_.BroadcastsInDim S32x1 (![] : Fin 0 → Fin S32x1.rank)
  bcast_S32x1_S32x32768_0_1 : S32x1.BroadcastsInDim S32x32768 (![0, 1] : Fin 2 → Fin S32x32768.rank)
  dot_S32x1024x64_S32x1024x512_S32x64x512_1_1_2_2_0_0_wf : DotDims.WF S32x1024x64 S32x1024x512 S32x64x512 [1] [1] [2] [2] [0] [0]

variable [Facts₀]

def dot_S32x1024x64_S32x1024x512_S32x64x512_1_1_2_2_0_0 : DotDims S32x1024x64 S32x1024x512 S32x64x512 where
  lhsContracting := [1]
  rhsContracting := [1]
  lhsNonContracting := [2]
  rhsNonContracting := [2]
  lhsBatch := [0]
  rhsBatch := [0]
  wf := dot_S32x1024x64_S32x1024x512_S32x64x512_1_1_2_2_0_0_wf

class Facts : Prop extends Facts₀ where

variable [Facts]
-- ==== Proof.Spec.lean ====
/-
  The mathematics of the NetVLAD head, for ONE batch element, over the extended reals.

  For descriptor rows `x n d` (n < 1024, d < 512), assignment logits `bn n k` (k < 64) and cluster centres
  `c d k`:
    * `soft (bn n) k`  — the softmax of row `n` of the logits over the 64 clusters, taken in the stable
      form exp(l_k − max l) / Σ exp(l_k' − max l);
    * `resid x bn c d k = Σ_n x n d · soft (bn n) k − (Σ_n soft (bn n) k) · c d k` — the residual of the
      descriptors against centre `k`, weighted by the assignments;
    * `normed r d k = r d k · (Σ_d' r d' k · r d' k + ε)^(-1/2)` — each cluster's column normalised over `d`;
    * `sumsq v = Σ_d Σ_k v d k · v d k` and `out v j = v (j / 64) (j % 64) · (sumsq v + ε)^(-1/2)` — the
      whole 512 × 64 table flattened row-major to 32768 entries and normalised once more.
  Two small laws about finite sums on the extended reals (an additive commutative monoid, so no finiteness is
  needed): a sum over the flattened index is the double sum over its quotient and remainder, and the maximum of
  the fold's starting value with the fold is the fold.
-/
import Idealize.ShloMosaic.PureOps.Ideal
import Idealize.ShloMosaic.PureOps.Ideal.Laws
import Idealize.ShloMosaic.Lib.ValueIdx

noncomputable section

open scoped BigOperators

namespace Cert.NetVlad

open Idealize.ShloMosaic Idealize.ShloMosaic.ValueIdx

/-- The word of −∞ the maxima start from, and the ε both normalisations add (the same word on both sides). -/
abbrev negInf : EReal := Ideal.ofBits .f32 0xFF800000#32
abbrev eps : EReal := Ideal.ofBits .f32 0x2B8CBCCC#32

/-- The maximum of a row of 64 logits, folded from −∞. -/
def rowMax (r : Fin 64 → EReal) : EReal := (Finset.univ : Finset (Fin 64)).fold max negInf r

/-- exp(l_k − max l). -/
def expo (r : Fin 64 → EReal) (k : Fin 64) : EReal := Ideal.exp (r k - rowMax r)

/-- The softmax of a row at cluster `k`. -/
def soft (r : Fin 64 → EReal) (k : Fin 64) : EReal := Ideal.div (expo r k) (∑ k' : Fin 64, expo r k')

/-- The assignment-weighted residual of the descriptors against centre `k`, at feature `d`. -/
def resid (x : Fin 1024 → Fin 512 → EReal) (bn : Fin 1024 → Fin 64 → EReal) (c : Fin 512 → Fin 64 → EReal)
    (d : Fin 512) (k : Fin 64) : EReal :=
  (∑ n : Fin 1024, x n d * soft (bn n) k) - (∑ n : Fin 1024, soft (bn n) k) * c d k

/-- Each cluster's column scaled by the inverse root of its sum of squares plus ε. -/
def normed (r : Fin 512 → Fin 64 → EReal) (d : Fin 512) (k : Fin 64) : EReal :=
  r d k * Ideal.rsqrt ((∑ d' : Fin 512, r d' k * r d' k) + eps)

/-- The intra-normalised residual table of one batch element. -/
def vlad (x : Fin 1024 → Fin 512 → EReal) (bn : Fin 1024 → Fin 64 → EReal) (c : Fin 512 → Fin 64 → EReal) :
    Fin 512 → Fin 64 → EReal := normed (resid x bn c)

/-- The table's sum of squares, rows outermost. -/
def sumsq (v : Fin 512 → Fin 64 → EReal) : EReal := ∑ d : Fin 512, ∑ k : Fin 64, v d k * v d k

/-- Quotient and remainder of a flattened index by the row length 64. -/
def rowOf (j : Fin 32768) : Fin 512 := ⟨j.val / 64, by have := j.isLt; omega⟩
def colOf (j : Fin 32768) : Fin 64 := ⟨j.val % 64, by omega⟩

/-- The flattened table scaled by the inverse root of its sum of squares plus ε. -/
def out (v : Fin 512 → Fin 64 → EReal) (j : Fin 32768) : EReal :=
  v (rowOf j) (colOf j) * Ideal.rsqrt (sumsq v + eps)

/-- Row-major flattening of a 512 × 64 table is a bijection onto the 32768 flat positions. -/
def flat : Fin 512 × Fin 64 ≃ Fin 32768 where
  toFun p := ⟨p.1.val * 64 + p.2.val, by have := p.1.isLt; have := p.2.isLt; omega⟩
  invFun j := (rowOf j, colOf j)
  left_inv p := by
    have h1 := p.1.isLt; have h2 := p.2.isLt
    refine Prod.ext (Fin.ext ?_) (Fin.ext ?_)
    · show (p.1.val * 64 + p.2.val) / 64 = p.1.val; omega
    · show (p.1.val * 64 + p.2.val) % 64 = p.2.val; omega
  right_inv j := by
    refine Fin.ext ?_
    show j.val / 64 * 64 + j.val % 64 = j.val; omega

/-- A sum over the flattened positions is the double sum over rows and columns. -/
theorem sum_flat (g : Fin 512 → Fin 64 → EReal) :
    ∑ j : Fin 32768, g (rowOf j) (colOf j) = ∑ d : Fin 512, ∑ k : Fin 64, g d k := by
  rw [← Equiv.sum_comp flat (fun j => g (rowOf j) (colOf j)), Fintype.sum_prod_type]
  refine Finset.sum_congr rfl fun d _ => Finset.sum_congr rfl fun k _ => ?_
  have e := flat.left_inv (d, k)
  have e1 : rowOf (flat (d, k)) = d := congrArg Prod.fst e
  have e2 : colOf (flat (d, k)) = k := congrArg Prod.snd e
  rw [e1, e2]

/-! ## The three argument arrays read one batch element at a time, and the whole result -/

/-- Row `n` of batch element `b` among the 32 · 1024 rows of the logits. -/
def flatRow (b : Fin 32) (n : Fin 1024) : Fin 32768 := ⟨b.val * 1024 + n.val, by have := b.isLt; have := n.isLt; omega⟩

/-- Batch element `b`'s descriptors. -/
def xRows (X : (⟨3, ![32, 1024, 512]⟩ : Shape).Idx → EReal) (b : Fin 32) : Fin 1024 → Fin 512 → EReal :=
  fun n d => X (ix3 b n d)
/-- Batch element `b`'s logits, out of the [32768, 64] array. -/
def bnRows (Bn : (⟨2, ![32768, 64]⟩ : Shape).Idx → EReal) (b : Fin 32) : Fin 1024 → Fin 64 → EReal :=
  fun n k => Bn (ix2 (flatRow b n) k)
/-- The centres, out of the [1, 512, 64] array. -/
def centres (C : (⟨3, ![1, 512, 64]⟩ : Shape).Idx → EReal) : Fin 512 → Fin 64 → EReal :=
  fun d k => C (ix3 ⟨0, Nat.one_pos⟩ d k)

/-- THE RESULT: row `b` of the [32, 32768] output is batch element `b`'s normalised table, flattened and
    normalised again. -/
def result (X : (⟨3, ![32, 1024, 512]⟩ : Shape).Idx → EReal) (Bn : (⟨2, ![32768, 64]⟩ : Shape).Idx → EReal)
    (C : (⟨3, ![1, 512, 64]⟩ : Shape).Idx → EReal) : (⟨2, ![32, 32768]⟩ : Shape).Idx → EReal :=
  fun i => out (vlad (xRows X (i 0)) (bnRows Bn (i 0)) (centres C)) (i 1)

/-- The fold's starting value is below the fold. -/
theorem max_negInf_rowMax (r : Fin 64 → EReal) : max negInf (rowMax r) = rowMax r := by
  unfold rowMax
  exact max_eq_right ((Finset.le_fold_max negInf).mpr (Or.inl le_rfl))

end Cert.NetVlad

end
-- ==== Proof.Payload.lean ====
/-
  What the kernel body computes on one block of four batch elements, read index by index.

  The body loads a [4, 1024, 64] block of logits, a [4, 1024, 512] block of descriptors and the [512, 64] centres.
  Per batch element `bb` of the block it takes the softmax of each row of logits, sums the assignments over the rows,
  contracts descriptors with assignments over the rows (one batched matrix product), subtracts the centres scaled by
  the summed assignments and scales each cluster's column by the inverse root of its sum of squares: entry
  (bb, d, k) of what it stores is `vlad` of that batch element's rows at (d, k). The second output is the table's sum
  of squares — over the clusters first, then over the features — broadcast over an [8, 128] tile.
  Each operation that is not pointwise is read at explicit coordinates by one small lemma; the pointwise ones read
  through by definition.
-/
import proofs.«164488_j25056839204955_2_alg».proof.Proof.Gen.KernelIdeal.Skeleton
import proofs.«164488_j25056839204955_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Cert.KernelIdeal.Facts₀
open Idealize.ShloMosaic Idealize.ShloMosaic.ValueIdx Cert.NetVlad

/-- Two indices with the same coordinates, each computing by unfolding, are equal. -/
macro "idx_eq" : tactic => `(tactic| (funext a; apply Fin.ext; first
  | (match a with | ⟨0, _⟩ => rfl | ⟨1, _⟩ => rfl | ⟨2, _⟩ => rfl)
  | (match a with | ⟨0, _⟩ => rfl | ⟨1, _⟩ => rfl)
  | (match a with | ⟨0, _⟩ => rfl)))

abbrev z1 : Fin 1 := ⟨0, Nat.one_pos⟩

/-! ## Pointwise transcendental operations at an index -/

theorem exp_at {s : Shape} (x : FVec Ideal s .f32) (i : s.Idx) : exp x i = Ideal.exp (x i) := rfl
theorem rsqrt_at {s : Shape} (x : FVec Ideal s .f32) (i : s.Idx) : rsqrt x i = Ideal.rsqrt (x i) := rfl

/-! ## Reductions over one axis -/

theorem max_lane (v : FVec Ideal S4x1024x64 .f32) (h : S4x1024x64.Reduces [2] S4x1024) (hφ : FKind.Formats .f32) (hacc : (0xFF800000#32 : BitVec 32) = 0xFF800000#32) (bb : Fin 4) (n : Fin 1024) :
    multiReduction .maximumf [2] S4x1024 v 0xFF800000#32 h hφ hacc (ix2 bb n) = rowMax (fun k => v (ix3 bb n k)) := by
  refine (Ideal.multiReduction_maximumf_single v 0xFF800000#32 h hφ hacc (ix2 bb n)).trans ?_
  have e : (v ∘ h.lift (ix2 bb n)) = fun k : Fin 64 => v (ix3 bb n k) := funext fun k => congrArg v (by idx_eq)
  rw [e]
  rfl

theorem sum_lane (v : FVec Ideal S4x1024x64 .f32) (h : S4x1024x64.Reduces [2] S4x1024) (hφ : FKind.Formats .f32) (hacc : (0x00000000#32 : BitVec 32) = 0x00000000#32) (bb : Fin 4) (n : Fin 1024) :
    multiReduction .add [2] S4x1024 v 0x00000000#32 h hφ hacc (ix2 bb n) = ∑ k : Fin 64, v (ix3 bb n k) := by
  refine (Ideal.multiReduction_add_single v 0x00000000#32 h hφ hacc _).trans ?_
  exact Finset.sum_congr rfl fun k _ => congrArg v (by idx_eq)

theorem sum_rows (v : FVec Ideal S4x1024x64 .f32) (h : S4x1024x64.Reduces [1] S4x64) (hφ : FKind.Formats .f32) (hacc : (0x00000000#32 : BitVec 32) = 0x00000000#32) (bb : Fin 4) (k : Fin 64) :
    multiReduction .add [1] S4x64 v 0x00000000#32 h hφ hacc (ix2 bb k) = ∑ n : Fin 1024, v (ix3 bb n k) := by
  refine (Ideal.multiReduction_add_single v 0x00000000#32 h hφ hacc _).trans ?_
  exact Finset.sum_congr rfl fun n _ => congrArg v (by idx_eq)

theorem sum_feat (v : FVec Ideal S4x512x64 .f32) (h : S4x512x64.Reduces [1] S4x64) (hφ : FKind.Formats .f32) (hacc : (0x00000000#32 : BitVec 32) = 0x00000000#32) (bb : Fin 4) (k : Fin 64) :
    multiReduction .add [1] S4x64 v 0x00000000#32 h hφ hacc (ix2 bb k) = ∑ d : Fin 512, v (ix3 bb d k) := by
  refine (Ideal.multiReduction_add_single v 0x00000000#32 h hφ hacc _).trans ?_
  exact Finset.sum_congr rfl fun d _ => congrArg v (by idx_eq)

theorem sum_clus (v : FVec Ideal S4x512x64 .f32) (h : S4x512x64.Reduces [2] S4x512) (hφ : FKind.Formats .f32) (hacc : (0x00000000#32 : BitVec 32) = 0x00000000#32) (bb : Fin 4) (d : Fin 512) :
    multiReduction .add [2] S4x512 v 0x00000000#32 h hφ hacc (ix2 bb d) = ∑ k : Fin 64, v (ix3 bb d k) := by
  refine (Ideal.multiReduction_add_single v 0x00000000#32 h hφ hacc _).trans ?_
  exact Finset.sum_congr rfl fun k _ => congrArg v (by idx_eq)

theorem sum_col (v : FVec Ideal S4x512x1 .f32) (h : S4x512x1.Reduces [1] S4x1) (hφ : FKind.Formats .f32) (hacc : (0x00000000#32 : BitVec 32) = 0x00000000#32) (bb : Fin 4) (u : Fin 1) :
    multiReduction .add [1] S4x1 v 0x00000000#32 h hφ hacc (ix2 bb u) = ∑ d : Fin 512, v (ix3 bb d z1) := by
  refine (Ideal.multiReduction_add_single v 0x00000000#32 h hφ hacc _).trans ?_
  refine Finset.sum_congr rfl fun d _ => congrArg v ?_
  funext a; apply Fin.ext
  match a with
  | ⟨0, _⟩ => rfl
  | ⟨1, _⟩ => rfl
  | ⟨2, _⟩ => show u.val = 0; omega

/-! ## The same reductions as whole functions of the reduced index -/

theorem max_lane_fn (v : FVec Ideal S4x1024x64 .f32) (h : S4x1024x64.Reduces [2] S4x1024) (hφ : FKind.Formats .f32) (hacc : (0xFF800000#32 : BitVec 32) = 0xFF800000#32) :
    multiReduction .maximumf [2] S4x1024 v 0xFF800000#32 h hφ hacc
      = fun i => rowMax (fun k => v (ix3 (i 0 : Fin 4) (i 1 : Fin 1024) k)) := by
  funext i
  obtain ⟨bb, n, rfl⟩ : ∃ (bb : Fin 4) (n : Fin 1024), i = ix2 bb n := ⟨i 0, i 1, eq_ix2 i⟩
  exact max_lane v h hφ hacc bb n

theorem sum_lane_fn (v : FVec Ideal S4x1024x64 .f32) (h : S4x1024x64.Reduces [2] S4x1024) (hφ : FKind.Formats .f32) (hacc : (0x00000000#32 : BitVec 32) = 0x00000000#32) :
    multiReduction .add [2] S4x1024 v 0x00000000#32 h hφ hacc
      = fun i => ∑ k : Fin 64, v (ix3 (i 0 : Fin 4) (i 1 : Fin 1024) k) := by
  funext i
  obtain ⟨bb, n, rfl⟩ : ∃ (bb : Fin 4) (n : Fin 1024), i = ix2 bb n := ⟨i 0, i 1, eq_ix2 i⟩
  exact sum_lane v h hφ hacc bb n

theorem sum_rows_fn (v : FVec Ideal S4x1024x64 .f32) (h : S4x1024x64.Reduces [1] S4x64) (hφ : FKind.Formats .f32) (hacc : (0x00000000#32 : BitVec 32) = 0x00000000#32) :
    multiReduction .add [1] S4x64 v 0x00000000#32 h hφ hacc
      = fun i => ∑ n : Fin 1024, v (ix3 (i 0 : Fin 4) n (i 1 : Fin 64)) := by
  funext i
  obtain ⟨bb, k, rfl⟩ : ∃ (bb : Fin 4) (k : Fin 64), i = ix2 bb k := ⟨i 0, i 1, eq_ix2 i⟩
  exact sum_rows v h hφ hacc bb k

theorem sum_feat_fn (v : FVec Ideal S4x512x64 .f32) (h : S4x512x64.Reduces [1] S4x64) (hφ : FKind.Formats .f32) (hacc : (0x00000000#32 : BitVec 32) = 0x00000000#32) :
    multiReduction .add [1] S4x64 v 0x00000000#32 h hφ hacc
      = fun i => ∑ d : Fin 512, v (ix3 (i 0 : Fin 4) d (i 1 : Fin 64)) := by
  funext i
  obtain ⟨bb, k, rfl⟩ : ∃ (bb : Fin 4) (k : Fin 64), i = ix2 bb k := ⟨i 0, i 1, eq_ix2 i⟩
  exact sum_feat v h hφ hacc bb k

theorem sum_clus_fn (v : FVec Ideal S4x512x64 .f32) (h : S4x512x64.Reduces [2] S4x512) (hφ : FKind.Formats .f32) (hacc : (0x00000000#32 : BitVec 32) = 0x00000000#32) :
    multiReduction .add [2] S4x512 v 0x00000000#32 h hφ hacc
      = fun i => ∑ k : Fin 64, v (ix3 (i 0 : Fin 4) (i 1 : Fin 512) k) := by
  funext i
  obtain ⟨bb, d, rfl⟩ : ∃ (bb : Fin 4) (d : Fin 512), i = ix2 bb d := ⟨i 0, i 1, eq_ix2 i⟩
  exact sum_clus v h hφ hacc bb d

theorem sum_col_fn (v : FVec Ideal S4x512x1 .f32) (h : S4x512x1.Reduces [1] S4x1) (hφ : FKind.Formats .f32) (hacc : (0x00000000#32 : BitVec 32) = 0x00000000#32) :
    multiReduction .add [1] S4x1 v 0x00000000#32 h hφ hacc
      = fun i => ∑ d : Fin 512, v (ix3 (i 0 : Fin 4) d z1) := by
  funext i
  obtain ⟨bb, u, rfl⟩ : ∃ (bb : Fin 4) (u : Fin 1), i = ix2 bb u := ⟨i 0, i 1, eq_ix2 i⟩
  exact sum_col v h hφ hacc bb u

/-! ## Unit axes added, and broadcasts along them -/

theorem cast_rowcol (v : FVec Ideal S4x1024 .f32) (h : S4x1024.ShapeCasts S4x1024x1) (bb : Fin 4) (n : Fin 1024) (u : Fin 1) :
    shapeCast S4x1024x1 v h (ix3 bb n u) = v (ix2 bb n) :=
  shapeCast_apply v h _ _ (by
    rewrite [Shape.rowMajor_val_two, Shape.rowMajor_val_three]
    show bb.val * 1024 + n.val = (bb.val * 1024 + n.val) * 1 + u.val; omega)

theorem spread_rowcol (v : FVec Ideal S4x1024x1 .f32) (h : S4x1024x1.Broadcasts S4x1024x64) (bb : Fin 4) (n : Fin 1024) (k : Fin 64) :
    broadcastTo S4x1024x64 v h (ix3 bb n k) = v (ix3 bb n z1) :=
  broadcastTo_apply v h _ _ (fun a => match a with
    | ⟨0, _⟩ => by show bb.val = if (4 : Nat) = 1 then 0 else bb.val; rw [if_neg (by decide)]
    | ⟨1, _⟩ => by show n.val = if (1024 : Nat) = 1 then 0 else n.val; rw [if_neg (by decide)]
    | ⟨2, _⟩ => by show 0 = if (1 : Nat) = 1 then 0 else k.val; rw [if_pos rfl])

theorem cast_clusrow (v : FVec Ideal S4x64 .f32) (h : S4x64.ShapeCasts S4x1x64) (bb : Fin 4) (u : Fin 1) (k : Fin 64) :
    shapeCast S4x1x64 v h (ix3 bb u k) = v (ix2 bb k) :=
  shapeCast_apply v h _ _ (by
    rewrite [Shape.rowMajor_val_two, Shape.rowMajor_val_three]
    show bb.val * 64 + k.val = (bb.val * 1 + u.val) * 64 + k.val; omega)

theorem spread_clusrow (v : FVec Ideal S4x1x64 .f32) (h : S4x1x64.Broadcasts S4x512x64) (bb : Fin 4) (d : Fin 512) (k : Fin 64) :
    broadcastTo S4x512x64 v h (ix3 bb d k) = v (ix3 bb z1 k) :=
  broadcastTo_apply v h _ _ (fun a => match a with
    | ⟨0, _⟩ => by show bb.val = if (4 : Nat) = 1 then 0 else bb.val; rw [if_neg (by decide)]
    | ⟨1, _⟩ => by show 0 = if (1 : Nat) = 1 then 0 else d.val; rw [if_pos rfl]
    | ⟨2, _⟩ => by show k.val = if (64 : Nat) = 1 then 0 else k.val; rw [if_neg (by decide)])

theorem cast_centres (v : FVec Ideal S512x64 .f32) (h : S512x64.ShapeCasts S1x512x64) (u : Fin 1) (d : Fin 512) (k : Fin 64) :
    shapeCast S1x512x64 v h (ix3 u d k) = v (ix2 d k) :=
  shapeCast_apply v h _ _ (by
    rewrite [Shape.rowMajor_val_two, Shape.rowMajor_val_three]
    show d.val * 64 + k.val = (u.val * 512 + d.val) * 64 + k.val; omega)

theorem spread_centres (v : FVec Ideal S1x512x64 .f32) (h : S1x512x64.Broadcasts S4x512x64) (bb : Fin 4) (d : Fin 512) (k : Fin 64) :
    broadcastTo S4x512x64 v h (ix3 bb d k) = v (ix3 z1 d k) :=
  broadcastTo_apply v h _ _ (fun a => match a with
    | ⟨0, _⟩ => by show 0 = if (1 : Nat) = 1 then 0 else bb.val; rw [if_pos rfl]
    | ⟨1, _⟩ => by show d.val = if (512 : Nat) = 1 then 0 else d.val; rw [if_neg (by decide)]
    | ⟨2, _⟩ => by show k.val = if (64 : Nat) = 1 then 0 else k.val; rw [if_neg (by decide)])

theorem cast_featcol (v : FVec Ideal S4x512 .f32) (h : S4x512.ShapeCasts S4x512x1) (bb : Fin 4) (d : Fin 512) (u : Fin 1) :
    shapeCast S4x512x1 v h (ix3 bb d u) = v (ix2 bb d) :=
  shapeCast_apply v h _ _ (by
    rewrite [Shape.rowMajor_val_two, Shape.rowMajor_val_three]
    show bb.val * 512 + d.val = (bb.val * 512 + d.val) * 1 + u.val; omega)

theorem cast_one (v : FVec Ideal S4x1 .f32) (h : S4x1.ShapeCasts S4x1x1) (bb : Fin 4) (u u' : Fin 1) :
    shapeCast S4x1x1 v h (ix3 bb u u') = v (ix2 bb z1) :=
  shapeCast_apply v h _ _ (by
    rewrite [Shape.rowMajor_val_two, Shape.rowMajor_val_three]
    show bb.val * 1 + 0 = (bb.val * 1 + u.val) * 1 + u'.val; omega)

theorem spread_tile (v : FVec Ideal S4x1x1 .f32) (h : S4x1x1.Broadcasts S4x8x128) (bb : Fin 4) (r : Fin 8) (l : Fin 128) :
    broadcastTo S4x8x128 v h (ix3 bb r l) = v (ix3 bb z1 z1) :=
  broadcastTo_apply v h _ _ (fun a => match a with
    | ⟨0, _⟩ => by show bb.val = if (4 : Nat) = 1 then 0 else bb.val; rw [if_neg (by decide)]
    | ⟨1, _⟩ => by show 0 = if (1 : Nat) = 1 then 0 else r.val; rw [if_pos rfl]
    | ⟨2, _⟩ => by show 0 = if (1 : Nat) = 1 then 0 else l.val; rw [if_pos rfl])

/-! ## The batched matrix product: descriptors against assignments, contracted over the rows -/

theorem lhs_0 (i : S4x512x64.Idx) (q : dot_S4x1024x512_S4x1024x64_S4x512x64_1_1_2_2_0_0.contr.Idx) : (dot_S4x1024x512_S4x1024x64_S4x512x64_1_1_2_2_0_0.lhsIdx i q 0).val = (i 0).val := by
  unfold DotDims.lhsIdx
  rw [dif_pos (show (0 : Fin S4x1024x512.rank) ∈ dot_S4x1024x512_S4x1024x64_S4x512x64_1_1_2_2_0_0.lhsBatch by decide)]
  rfl
theorem lhs_1 (i : S4x512x64.Idx) (q : dot_S4x1024x512_S4x1024x64_S4x512x64_1_1_2_2_0_0.contr.Idx) : (dot_S4x1024x512_S4x1024x64_S4x512x64_1_1_2_2_0_0.lhsIdx i q 1).val = (q ⟨0, by decide⟩).val :=
  dot_S4x1024x512_S4x1024x64_S4x512x64_1_1_2_2_0_0.lhsIdx_val_of_single rfl i q
theorem lhs_2 (i : S4x512x64.Idx) (q : dot_S4x1024x512_S4x1024x64_S4x512x64_1_1_2_2_0_0.contr.Idx) : (dot_S4x1024x512_S4x1024x64_S4x512x64_1_1_2_2_0_0.lhsIdx i q 2).val = (i 1).val := by
  unfold DotDims.lhsIdx
  rw [dif_neg (show ¬(2 : Fin S4x1024x512.rank) ∈ dot_S4x1024x512_S4x1024x64_S4x512x64_1_1_2_2_0_0.lhsBatch by decide), dif_pos (show (2 : Fin S4x1024x512.rank) ∈ dot_S4x1024x512_S4x1024x64_S4x512x64_1_1_2_2_0_0.lhsNonContracting by decide)]
  rfl
theorem rhs_0 (i : S4x512x64.Idx) (q : dot_S4x1024x512_S4x1024x64_S4x512x64_1_1_2_2_0_0.contr.Idx) : (dot_S4x1024x512_S4x1024x64_S4x512x64_1_1_2_2_0_0.rhsIdx i q 0).val = (i 0).val := by
  unfold DotDims.rhsIdx
  rw [dif_pos (show (0 : Fin S4x1024x64.rank) ∈ dot_S4x1024x512_S4x1024x64_S4x512x64_1_1_2_2_0_0.rhsBatch by decide)]
  rfl
theorem rhs_1 (i : S4x512x64.Idx) (q : dot_S4x1024x512_S4x1024x64_S4x512x64_1_1_2_2_0_0.contr.Idx) : (dot_S4x1024x512_S4x1024x64_S4x512x64_1_1_2_2_0_0.rhsIdx i q 1).val = (q ⟨0, by decide⟩).val :=
  dot_S4x1024x512_S4x1024x64_S4x512x64_1_1_2_2_0_0.rhsIdx_val_of_single rfl i q
theorem rhs_2 (i : S4x512x64.Idx) (q : dot_S4x1024x512_S4x1024x64_S4x512x64_1_1_2_2_0_0.contr.Idx) : (dot_S4x1024x512_S4x1024x64_S4x512x64_1_1_2_2_0_0.rhsIdx i q 2).val = (i 2).val := by
  unfold DotDims.rhsIdx
  rw [dif_neg (show ¬(2 : Fin S4x1024x64.rank) ∈ dot_S4x1024x512_S4x1024x64_S4x512x64_1_1_2_2_0_0.rhsBatch by decide), dif_pos (show (2 : Fin S4x1024x64.rank) ∈ dot_S4x1024x512_S4x1024x64_S4x512x64_1_1_2_2_0_0.rhsNonContracting by decide)]
  rfl

theorem matmul_at (l : FVec Ideal S4x1024x512 .bf16) (r : FVec Ideal S4x1024x64 .bf16) (bb : Fin 4) (d : Fin 512) (k : Fin 64) :
    matmul dot_S4x1024x512_S4x1024x64_S4x512x64_1_1_2_2_0_0 none l r (constant S4x512x64 .f32 0x00000000#32) (ix3 bb d k)
      = ∑ n : Fin 1024, l (ix3 bb n d) * r (ix3 bb n k) := by
  simp only [matmul]
  rw [Ideal.matmul_constant_zero_apply, ← Equiv.sum_comp (contrEquiv1 dot_S4x1024x512_S4x1024x64_S4x512x64_1_1_2_2_0_0 1024 rfl rfl).symm]
  refine Finset.sum_congr rfl fun n _ => ?_
  have hk := contrEquiv1_symm_val dot_S4x1024x512_S4x1024x64_S4x512x64_1_1_2_2_0_0 1024 rfl rfl n
  have el : dot_S4x1024x512_S4x1024x64_S4x512x64_1_1_2_2_0_0.lhsIdx (ix3 bb d k) ((contrEquiv1 dot_S4x1024x512_S4x1024x64_S4x512x64_1_1_2_2_0_0 1024 rfl rfl).symm n) = ix3 bb n d := funext fun a => Fin.ext (by
    match a with
    | ⟨0, _⟩ => exact lhs_0 _ _
    | ⟨1, _⟩ => exact (lhs_1 _ _).trans hk
    | ⟨2, _⟩ => exact lhs_2 _ _)
  have er : dot_S4x1024x512_S4x1024x64_S4x512x64_1_1_2_2_0_0.rhsIdx (ix3 bb d k) ((contrEquiv1 dot_S4x1024x512_S4x1024x64_S4x512x64_1_1_2_2_0_0 1024 rfl rfl).symm n) = ix3 bb n k := funext fun a => Fin.ext (by
    match a with
    | ⟨0, _⟩ => exact rhs_0 _ _
    | ⟨1, _⟩ => exact (rhs_1 _ _).trans hk
    | ⟨2, _⟩ => exact rhs_2 _ _)
  rw [el, er]

theorem matmul_fn (l : FVec Ideal S4x1024x512 .bf16) (r : FVec Ideal S4x1024x64 .bf16) :
    matmul dot_S4x1024x512_S4x1024x64_S4x512x64_1_1_2_2_0_0 none l r (constant S4x512x64 .f32 0x00000000#32)
      = fun i => ∑ n : Fin 1024, l (ix3 (i 0 : Fin 4) n (i 1 : Fin 512)) * r (ix3 (i 0 : Fin 4) n (i 2 : Fin 64)) := by
  funext i
  obtain ⟨bb, d, k, rfl⟩ : ∃ (bb : Fin 4) (d : Fin 512) (k : Fin 64), i = ix3 bb d k := ⟨i 0, i 1, i 2, eq_ix3 i⟩
  exact matmul_at l r bb d k

/-! ## The two stored values -/

variable (v0 : Vec Ideal S4x1024x64 .f32) (v12 : Vec Ideal S4x1024x512 .f32) (v16 : Vec Ideal S512x64 .f32)

/-- One batch element of the block: its descriptors, its logits, and the centres, as plain tables. -/
def blkX (bb : Fin 4) : Fin 1024 → Fin 512 → EReal := fun n d => v12 (ix3 bb n d)
def blkBn (bb : Fin 4) : Fin 1024 → Fin 64 → EReal := fun n k => v0 (ix3 bb n k)
def blkC : Fin 512 → Fin 64 → EReal := fun d k => v16 (ix2 d k)

/-- WHAT THE BODY STORES IN THE FIRST OUTPUT, at (bb, d, k): batch element `bb`'s normalised residual table at (d, k). -/
theorem pay2_at (bb : Fin 4) (d : Fin 512) (k : Fin 64) :
    k0_pay2 (F := Ideal) v0 v12 v16 (ix3 bb d k) = vlad (blkX v12 bb) (blkBn v0 bb) (blkC v16) d k := by
  unfold k0_pay2
  dsimp only
  rw [max_lane_fn, sum_lane_fn, sum_rows_fn, matmul_fn, sum_feat_fn]
  simp only [mulf_apply, subf_apply, addf_apply, divf_apply, exp_at, rsqrt_at, truncf_apply, broadcast_apply,
    shapeCast_self, cast_rowcol, spread_rowcol, cast_clusrow, spread_clusrow, cast_centres, spread_centres]
  rfl

/-- WHAT THE BODY RETURNS FOR THE SECOND OUTPUT, at (bb, 0, 0): the table's sum of squares, clusters innermost. -/
theorem pay3_at (bb : Fin 4) (u u' : Fin 1) :
    k0_pay3 (F := Ideal) v0 v12 v16 (ix3 bb u u') = sumsq (vlad (blkX v12 bb) (blkBn v0 bb) (blkC v16)) := by
  unfold k0_pay3
  dsimp only
  rw [sum_col_fn, sum_clus_fn]
  simp only [mulf_apply, shapeCast_self, cast_one, cast_featcol]
  have e : ∀ (d : Fin 512) (k : Fin 64), k0_pay2 (F := Ideal) v0 v12 v16 (ix3 bb d k) = vlad (blkX v12 bb) (blkBn v0 bb) (blkC v16) d k :=
    fun d k => pay2_at v0 v12 v16 bb d k
  show (∑ d : Fin 512, ∑ k : Fin 64, k0_pay2 (F := Ideal) v0 v12 v16 (ix3 bb d k) * k0_pay2 (F := Ideal) v0 v12 v16 (ix3 bb d k)) = _
  simp only [e]
  rfl

/-- … and the tile it is broadcast over. -/
theorem pay1_at (bb : Fin 4) (r : Fin 8) (l : Fin 128) :
    k0_pay1 (F := Ideal) (k0_pay3 (F := Ideal) v0 v12 v16) (ix3 bb r l)
      = sumsq (vlad (blkX v12 bb) (blkBn v0 bb) (blkC v16)) := by
  unfold k0_pay1
  simp only [spread_tile, pay3_at]

end Cert.KernelIdeal.Body

end
-- ==== Proof.Blocks.lean ====
/-
  From blocks to arrays: what the two output arrays of the kernel's region hold after the last grid point.

  The grid has eight points; point `t` works on batch elements 4t … 4t+3. Its three input windows read rows
  4t … 4t+3 of the descriptors and of the logits (seen as [32, 1024, 64]) and the whole [512, 64] centres; its two
  output windows write rows 4t … 4t+3 of the [32, 512, 64] table array and of the [32, 8, 128] sum-of-squares array.
  So batch row `b` of the first array ends at `vlad` of batch element `b` and every entry of batch row `b` of the
  second at that table's sum of squares: the blocks are restrictions of one whole-array function each, and the eight
  blocks cover the arrays (row `b` belongs to point `b / 4`).
-/
import proofs.«164488_j25056839204955_2_alg».proof.Proof.Gen.KernelIdeal.Frame
import proofs.«164488_j25056839204955_2_alg».proof.Proof.Payload
import Idealize.ShloMosaic.Lib.Pipeline.Value
import Idealize.ShloMosaic.Lib.StableHlo.Run

noncomputable section

open scoped BigOperators

namespace Cert.KernelIdeal.Whole

open Cert.KernelIdeal Cert.KernelIdeal.Gen Cert.KernelIdeal.Body
open Idealize.ShloMosaic Idealize.ShloMosaic.TcCoe Idealize.SL.Sem Idealize.ShloMosaic.ValueIdx Cert.NetVlad
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The grid has eight points. -/
theorem lt8 (t : Fin cfg0.N) : t.val < 8 := Nat.lt_of_lt_of_eq t.isLt N_0

/-- Batch element `bb` of point `t`'s block is batch element 4t + bb of the arrays. -/
def rowAt (t : Fin cfg0.N) (bb : Fin 4) : Fin 32 := ⟨4 * t.val + bb.val, by have := lt8 t; have := bb.isLt; omega⟩

/-- The printed index maps, decided over the grid: the four blocked windows move along the batch axis with the
    point, the centres' window stays. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0) :=
  (by decide +kernel : ∀ t : Fin grid0.N, _)

/-! ## The input blocks, read at an index -/

theorem iblk0_at (c : Dev nD) (t : Fin cfg0.N) (bb : Fin 4) (n : Fin 1024) (d : Fin 512) :
    (iblk m c 0 t : Vec Ideal S4x1024x512 .f32) (ix3 bb n d)
      = (V m c main_arg0 : S32x1024x512.Idx → EReal) (ix3 (rowAt t bb) n d) := by
  obtain ⟨⟨e0, e1, e2⟩, -⟩ := idx_facts t
  unfold iblk
  rw [View.read_apply]
  show (V m c main_arg0 : S32x1024x512.Idx → EReal) _ = _
  refine congrArg (V m c main_arg0 : S32x1024x512.Idx → EReal) ?_
  funext a; apply Fin.ext
  match a with
  | ⟨0, _⟩ => show win0_0.index t (0 : Fin 3) * 4 + 1 * bb.val = 4 * t.val + bb.val; rw [e0]; omega
  | ⟨1, _⟩ => show win0_0.index t (1 : Fin 3) * 1024 + 1 * n.val = n.val; rw [e1]; omega
  | ⟨2, _⟩ => show win0_0.index t (2 : Fin 3) * 512 + 1 * d.val = d.val; rw [e2]; omega

theorem iblk1_at (c : Dev nD) (t : Fin cfg0.N) (bb : Fin 4) (n : Fin 1024) (k : Fin 64) :
    (iblk m c 1 t : Vec Ideal S4x1024x64 .f32) (ix3 bb n k)
      = (V m c main_v0 : S32x1024x64.Idx → EReal) (ix3 (rowAt t bb) n k) := by
  obtain ⟨-, ⟨e0, e1, e2⟩, -⟩ := idx_facts t
  unfold iblk
  rw [View.read_apply]
  show (V m c main_v0 : S32x1024x64.Idx → EReal) _ = _
  refine congrArg (V m c main_v0 : S32x1024x64.Idx → EReal) ?_
  funext a; apply Fin.ext
  match a with
  | ⟨0, _⟩ => show win0_1.index t (0 : Fin 3) * 4 + 1 * bb.val = 4 * t.val + bb.val; rw [e0]; omega
  | ⟨1, _⟩ => show win0_1.index t (1 : Fin 3) * 1024 + 1 * n.val = n.val; rw [e1]; omega
  | ⟨2, _⟩ => show win0_1.index t (2 : Fin 3) * 64 + 1 * k.val = k.val; rw [e2]; omega

theorem iblk2_at (c : Dev nD) (t : Fin cfg0.N) (d : Fin 512) (k : Fin 64) :
    (iblk m c 2 t : Vec Ideal S512x64 .f32) (ix2 d k) = (V m c main_v1 : S512x64.Idx → EReal) (ix2 d k) := by
  obtain ⟨-, -, ⟨e0, e1⟩, -⟩ := idx_facts t
  unfold iblk
  rw [View.read_apply]
  show (V m c main_v1 : S512x64.Idx → EReal) _ = _
  refine congrArg (V m c main_v1 : S512x64.Idx → EReal) ?_
  funext a; apply Fin.ext
  match a with
  | ⟨0, _⟩ => show win0_2.index t (0 : Fin 2) * 512 + 1 * d.val = d.val; rw [e0]; omega
  | ⟨1, _⟩ => show win0_2.index t (1 : Fin 2) * 64 + 1 * k.val = k.val; rw [e1]; omega

/-! ## The two whole-array functions -/

/-- The table array: batch row `b` holds batch element `b`'s normalised residual table. -/
def table (X : S32x1024x512.Idx → EReal) (Bn : S32x1024x64.Idx → EReal) (C : S512x64.Idx → EReal) : S32x512x64.Idx → EReal :=
  fun i => vlad (fun n d => X (ix3 (i 0) n d)) (fun n k => Bn (ix3 (i 0) n k)) (fun d k => C (ix2 d k)) (i 1) (i 2)

/-- The sum-of-squares array: every entry of batch row `b` holds that table's sum of squares. -/
def energy (X : S32x1024x512.Idx → EReal) (Bn : S32x1024x64.Idx → EReal) (C : S512x64.Idx → EReal) : S32x8x128.Idx → EReal :=
  fun i => sumsq (vlad (fun n d => X (ix3 (i 0) n d)) (fun n k => Bn (ix3 (i 0) n k)) (fun d k => C (ix2 d k)))

/-- One batch element's tables out of point `t`'s input blocks are those of batch element 4t + bb of the arrays. -/
theorem blk_tables (c : Dev nD) (t : Fin cfg0.N) (bb : Fin 4) :
    vlad (blkX (iblk m c 0 t) bb) (blkBn (iblk m c 1 t) bb) (blkC (iblk m c 2 t))
      = vlad (fun n d => (V m c main_arg0 : S32x1024x512.Idx → EReal) (ix3 (rowAt t bb) n d))
          (fun n k => (V m c main_v0 : S32x1024x64.Idx → EReal) (ix3 (rowAt t bb) n k))
          (fun d k => (V m c main_v1 : S512x64.Idx → EReal) (ix2 d k)) := by
  have eX : blkX (iblk m c 0 t) bb = fun n d => (V m c main_arg0 : S32x1024x512.Idx → EReal) (ix3 (rowAt t bb) n d) :=
    funext fun n => funext fun d => iblk0_at m c t bb n d
  have eB : blkBn (iblk m c 1 t) bb = fun n k => (V m c main_v0 : S32x1024x64.Idx → EReal) (ix3 (rowAt t bb) n k) :=
    funext fun n => funext fun k => iblk1_at m c t bb n k
  have eC : blkC (iblk m c 2 t) = fun d k => (V m c main_v1 : S512x64.Idx → EReal) (ix2 d k) :=
    funext fun d => funext fun k => iblk2_at m c t d k
  rw [eX, eB, eC]

/-! ## Output window 3: the table array -/

/-- WHAT POINT `t` WRITES BACK into the table array is block `t` of `table`. -/
theorem flushed3_eq (c : Dev nD) (t : Fin cfg0.N) :
    (dats m 0 c).flushed 3 t
      = ((cfg0.win 3).blk t).view.read (Elt Ideal) (table (V m c main_arg0) (V m c main_v0) (V m c main_v1)) := by
  show (cfg0.win 3).cut (grid0.coords t) ((dats m 0 c).after 3 t) = _
  rw [after0_3]
  unfold out0_3
  rw [View.canon_unit_zero hz3]
  simp only [View.ld_unit_zero (S := S4x1024x64) hz3, View.ld_unit_zero (S := S4x1024x512) hz3,
    View.ld_unit_zero (S := S512x64) hz2]
  obtain ⟨-, -, -, ⟨e0, e1, e2⟩, -⟩ := idx_facts t
  funext j
  obtain ⟨bb, d, k, rfl⟩ : ∃ (bb : Fin 4) (d : Fin 512) (k : Fin 64), j = ix3 bb d k := ⟨j 0, j 1, j 2, eq_ix3 j⟩
  show k0_pay2 (F := Ideal) (iblk m c 1 t) (iblk m c 0 t) (iblk m c 2 t) (ix3 bb d k)
    = table (V m c main_arg0) (V m c main_v0) (V m c main_v1) (((cfg0.win 3).blk t).view.emb (ix3 bb d k))
  have e : ((cfg0.win 3).blk t).view.emb (ix3 bb d k) = (ix3 (rowAt t bb) d k : S32x512x64.Idx) := by
    funext a; apply Fin.ext
    match a with
    | ⟨0, _⟩ => show win0_3.index t (0 : Fin 3) * 4 + 1 * bb.val = 4 * t.val + bb.val; rw [e0]; omega
    | ⟨1, _⟩ => show win0_3.index t (1 : Fin 3) * 512 + 1 * d.val = d.val; rw [e1]; omega
    | ⟨2, _⟩ => show win0_3.index t (2 : Fin 3) * 64 + 1 * k.val = k.val; rw [e2]; omega
  rw [e]
  refine (pay2_at (iblk m c 1 t) (iblk m c 0 t) (iblk m c 2 t) bb d k).trans ?_
  rw [blk_tables m c t bb]
  rfl

/-- An index of the table array is in point `t`'s block iff each coordinate is in the block's range on its axis. -/
theorem mem_blk3 (t : Fin cfg0.N) (i : S32x512x64.Idx) :
    i ∈ ((cfg0.win 3).blk t).view.set ↔ ∀ a : Fin 3, win0_3.index t a * S4x512x64.size a ≤ (i a).val ∧ (i a).val < win0_3.index t a * S4x512x64.size a + S4x512x64.size a := by
  show i ∈ ((View.whole main_v2_0).slice (win0_3.rect t)).set ↔ _
  rw [View.set_slice_whole, Rect.mem_set_unit]
  exact Iff.rfl

/-- Batch row `b` is in the block of point `b / 4`. -/
theorem cover3 (i : S32x512x64.Idx) : ∃ t : Fin cfg0.N, (cfg0.win 3).flush t = true ∧ i ∈ ((cfg0.win 3).blk t).view.set := by
  have h0 : (i 0).val < 32 := (i 0).isLt
  have h1 : (i 1).val < 512 := (i 1).isLt
  have h2 : (i 2).val < 64 := (i 2).isLt
  have hN : cfg0.N = 8 := N_0
  refine ⟨⟨(i 0).val / 4, by rw [hN]; omega⟩, flush0_3 _, ?_⟩
  obtain ⟨-, -, -, ⟨e0, e1, e2⟩, -⟩ := idx_facts ⟨(i 0).val / 4, by rw [hN]; omega⟩
  rw [mem_blk3]
  intro a
  match a with
  | ⟨0, _⟩ => show win0_3.index _ (0 : Fin 3) * 4 ≤ (i 0).val ∧ (i 0).val < win0_3.index _ (0 : Fin 3) * 4 + 4; rw [e0]; show (i 0).val / 4 * 4 ≤ (i 0).val ∧ (i 0).val < (i 0).val / 4 * 4 + 4; omega
  | ⟨1, _⟩ => show win0_3.index _ (1 : Fin 3) * 512 ≤ (i 1).val ∧ (i 1).val < win0_3.index _ (1 : Fin 3) * 512 + 512; rw [e1]; omega
  | ⟨2, _⟩ => show win0_3.index _ (2 : Fin 3) * 64 ≤ (i 2).val ∧ (i 2).val < win0_3.index _ (2 : Fin 3) * 64 + 64; rw [e2]; omega

/-- THE TABLE ARRAY after the run. -/
theorem final3 (c : Dev nD) :
    (dats m 0 c).arrAt 3 cfg0.N = table (V m c main_arg0) (V m c main_v0) (V m c main_v1) :=
  (dats m 0 c).arrAt_eq_of_cover 3 (table (V m c main_arg0) (V m c main_v0) (V m c main_v1))
    (fun t _ => flushed3_eq m c t) cover3

/-! ## Output window 4: the sum-of-squares array -/

/-- WHAT POINT `t` WRITES BACK into the sum-of-squares array is block `t` of `energy`. -/
theorem flushed4_eq (c : Dev nD) (t : Fin cfg0.N) :
    (dats m 0 c).flushed 4 t
      = ((cfg0.win 4).blk t).view.read (Elt Ideal) (energy (V m c main_arg0) (V m c main_v0) (V m c main_v1)) := by
  show (cfg0.win 4).cut (grid0.coords t) ((dats m 0 c).after 4 t) = _
  rw [after0_4]
  unfold out0_4
  rw [View.canon_unit_zero hz3]
  simp only [View.ld_unit_zero (S := S4x1024x64) hz3, View.ld_unit_zero (S := S4x1024x512) hz3,
    View.ld_unit_zero (S := S512x64) hz2]
  obtain ⟨-, -, -, -, ⟨e0, e1, e2⟩⟩ := idx_facts t
  funext j
  obtain ⟨bb, r, l, rfl⟩ : ∃ (bb : Fin 4) (r : Fin 8) (l : Fin 128), j = ix3 bb r l := ⟨j 0, j 1, j 2, eq_ix3 j⟩
  show k0_pay1 (F := Ideal) (k0_pay3 (F := Ideal) (iblk m c 1 t) (iblk m c 0 t) (iblk m c 2 t)) (ix3 bb r l)
    = energy (V m c main_arg0) (V m c main_v0) (V m c main_v1) (((cfg0.win 4).blk t).view.emb (ix3 bb r l))
  have e : ((cfg0.win 4).blk t).view.emb (ix3 bb r l) = (ix3 (rowAt t bb) r l : S32x8x128.Idx) := by
    funext a; apply Fin.ext
    match a with
    | ⟨0, _⟩ => show win0_4.index t (0 : Fin 3) * 4 + 1 * bb.val = 4 * t.val + bb.val; rw [e0]; omega
    | ⟨1, _⟩ => show win0_4.index t (1 : Fin 3) * 8 + 1 * r.val = r.val; rw [e1]; omega
    | ⟨2, _⟩ => show win0_4.index t (2 : Fin 3) * 128 + 1 * l.val = l.val; rw [e2]; omega
  rw [e]
  refine (pay1_at (iblk m c 1 t) (iblk m c 0 t) (iblk m c 2 t) bb r l).trans ?_
  rw [blk_tables m c t bb]
  rfl

theorem mem_blk4 (t : Fin cfg0.N) (i : S32x8x128.Idx) :
    i ∈ ((cfg0.win 4).blk t).view.set ↔ ∀ a : Fin 3, win0_4.index t a * S4x8x128.size a ≤ (i a).val ∧ (i a).val < win0_4.index t a * S4x8x128.size a + S4x8x128.size a := by
  show i ∈ ((View.whole main_v2_1).slice (win0_4.rect t)).set ↔ _
  rw [View.set_slice_whole, Rect.mem_set_unit]
  exact Iff.rfl

theorem cover4 (i : S32x8x128.Idx) : ∃ t : Fin cfg0.N, (cfg0.win 4).flush t = true ∧ i ∈ ((cfg0.win 4).blk t).view.set := by
  have h0 : (i 0).val < 32 := (i 0).isLt
  have h1 : (i 1).val < 8 := (i 1).isLt
  have h2 : (i 2).val < 128 := (i 2).isLt
  have hN : cfg0.N = 8 := N_0
  refine ⟨⟨(i 0).val / 4, by rw [hN]; omega⟩, flush0_4 _, ?_⟩
  obtain ⟨-, -, -, -, ⟨e0, e1, e2⟩⟩ := idx_facts ⟨(i 0).val / 4, by rw [hN]; omega⟩
  rw [mem_blk4]
  intro a
  match a with
  | ⟨0, _⟩ => show win0_4.index _ (0 : Fin 3) * 4 ≤ (i 0).val ∧ (i 0).val < win0_4.index _ (0 : Fin 3) * 4 + 4; rw [e0]; show (i 0).val / 4 * 4 ≤ (i 0).val ∧ (i 0).val < (i 0).val / 4 * 4 + 4; omega
  | ⟨1, _⟩ => show win0_4.index _ (1 : Fin 3) * 8 ≤ (i 1).val ∧ (i 1).val < win0_4.index _ (1 : Fin 3) * 8 + 8; rw [e1]; omega
  | ⟨2, _⟩ => show win0_4.index _ (2 : Fin 3) * 128 ≤ (i 2).val ∧ (i 2).val < win0_4.index _ (2 : Fin 3) * 128 + 128; rw [e2]; omega

/-- THE SUM-OF-SQUARES ARRAY after the run. -/
theorem final4 (c : Dev nD) :
    (dats m 0 c).arrAt 4 cfg0.N = energy (V m c main_arg0) (V m c main_v0) (V m c main_v1) :=
  (dats m 0 c).arrAt_eq_of_cover 4 (energy (V m c main_arg0) (V m c main_v0) (V m c main_v1))
    (fun t _ => flushed4_eq m c t) cover4

/-! ## The two arrays the host prepares before the region -/

/-- The logits as the region finds them: the [32768, 64] argument seen as [32, 1024, 64]. -/
theorem V_logits (c : Dev nD) :
    (V m c main_v0 : S32x1024x64.Idx → EReal)
      = shapeCast S32x1024x64 (m ((c : Thread nD τ).loc main_arg1)) shapeCasts_S32768x64_S32x1024x64 := by
  show StableHlo.after hostOps0 (fun b => m (c, b)) (Proc.devRef .tc main_v0) = _
  after_results
  rfl

/-- The centres as the region finds them: the [1, 512, 64] argument seen as [512, 64]. -/
theorem V_centres (c : Dev nD) :
    (V m c main_v1 : S512x64.Idx → EReal)
      = shapeCast S512x64 (m ((c : Thread nD τ).loc main_arg2)) shapeCasts_S1x512x64_S512x64 := by
  show StableHlo.after hostOps0 (fun b => m (c, b)) (Proc.devRef .tc main_v1) = _
  after_results
  rfl

end Cert.KernelIdeal.Whole

end
-- ==== Proof.Tail.lean ====
/-
  The host operations after the region, and the kernel program's result as one function of its arguments.

  After the region the host flattens the [32, 512, 64] table array row-major to [32, 32768], takes entry (b, 0, 0) of
  the [32, 8, 128] sum-of-squares array, adds ε, takes the inverse root and scales batch row `b` of the flattened table
  by it. With the two arrays at `table` and `energy` (the blocks' cover) and the region's inputs at the arguments
  (the logits and the centres through a change of shape only), entry (b, j) of the result is
  `Cert.NetVlad.result` of the three arguments.
-/
import proofs.«164488_j25056839204955_2_alg».proof.Proof.Blocks

noncomputable section

open scoped BigOperators

namespace Cert.KernelIdeal.Whole

open Cert.KernelIdeal Cert.KernelIdeal.Gen Cert.KernelIdeal.Body
open Idealize.ShloMosaic Idealize.ShloMosaic.TcCoe Idealize.SL.Sem Idealize.ShloMosaic.ValueIdx Cert.NetVlad
open Idealize.ShloMosaic.Pipeline (Dat)

variable (m : (ℓ : Loc nD τ sig) → Buf (Elt Ideal) ℓ) (ρ : Dev nD → PrngReg)

/-! ## The tail as one function of the two arrays -/

/-- The per-batch scale: the inverse root of entry (b, 0, 0) of the sum-of-squares array plus ε. -/
def scale (A4 : S32x8x128.Idx → EReal) : S32.Idx → EReal :=
  Host.rsqrt (F := Ideal) (φ := .f32)
    (addf (F := Ideal) (φ := .f32)
      (shapeCast S32 (extractStridedSlice S32x1x1 ![0, 0, 0] A4 slices_S32x8x128_S32x1x1_0_0_0) shapeCasts_S32x1x1_S32)
      (broadcastInDim S32 ![] bcast_S_S32 (constant (F := Ideal) S_ .f32 0x2B8CBCCC#32)))

/-- The flattened table scaled batch row by batch row. -/
def tail (A3 : S32x512x64.Idx → EReal) (A4 : S32x8x128.Idx → EReal) : S32x32768.Idx → EReal :=
  mulf (F := Ideal) (φ := .f32) (shapeCast S32x32768 A3 shapeCasts_S32x512x64_S32x32768)
    (broadcastInDim S32x32768 ![0, 1] bcast_S32x1_S32x32768_0_1
      (broadcastInDim S32x1 ![0] bcast_S32_S32x1_0 (scale A4)))

abbrev o8 : Fin 8 := ⟨0, by decide⟩
abbrev o128 : Fin 128 := ⟨0, by decide⟩

theorem scale_at (A4 : S32x8x128.Idx → EReal) (b : Fin 32) :
    scale A4 (ix1 b) = Ideal.rsqrt (A4 (ix3 b o8 o128) + eps) := by
  have e1 : shapeCast S32 (extractStridedSlice S32x1x1 ![0, 0, 0] A4 slices_S32x8x128_S32x1x1_0_0_0) shapeCasts_S32x1x1_S32 (ix1 b)
      = A4 (ix3 b o8 o128) := by
    refine (shapeCast_apply _ shapeCasts_S32x1x1_S32 (ix1 b) (ix3 b z1 z1) (by
      rewrite [Shape.rowMajor_val_three, Shape.rowMajor_val_one]
      show (b.val * 1 + 0) * 1 + 0 = b.val; omega)).trans ?_
    exact extractStridedSlice_apply ![0, 0, 0] A4 slices_S32x8x128_S32x1x1_0_0_0 (ix3 b z1 z1) (ix3 b o8 o128) (fun a => match a with
      | ⟨0, _⟩ => by show b.val = 0 + b.val; omega
      | ⟨1, _⟩ => by show 0 = 0 + 0; rfl
      | ⟨2, _⟩ => by show 0 = 0 + 0; rfl)
  show Ideal.rsqrt (shapeCast S32 (extractStridedSlice S32x1x1 ![0, 0, 0] A4 slices_S32x8x128_S32x1x1_0_0_0) shapeCasts_S32x1x1_S32 (ix1 b) + _) = _
  rw [e1]
  rfl

theorem tail_at (A3 : S32x512x64.Idx → EReal) (A4 : S32x8x128.Idx → EReal) (b : Fin 32) (j : Fin 32768) :
    tail A3 A4 (ix2 b j) = A3 (ix3 b (rowOf j) (colOf j)) * Ideal.rsqrt (A4 (ix3 b o8 o128) + eps) := by
  have hb := b.isLt; have hj := j.isLt
  have e1 : shapeCast S32x32768 A3 shapeCasts_S32x512x64_S32x32768 (ix2 b j) = A3 (ix3 b (rowOf j) (colOf j)) :=
    shapeCast_apply A3 shapeCasts_S32x512x64_S32x32768 (ix2 b j) (ix3 b (rowOf j) (colOf j)) (by
      rewrite [Shape.rowMajor_val_three, Shape.rowMajor_val_two]
      show (b.val * 512 + j.val / 64) * 64 + j.val % 64 = b.val * 32768 + j.val; omega)
  have e2 : broadcastInDim S32x32768 ![0, 1] bcast_S32x1_S32x32768_0_1
      (broadcastInDim S32x1 ![0] bcast_S32_S32x1_0 (scale A4)) (ix2 b j) = scale A4 (ix1 b) := by
    refine (broadcastInDim_apply _ bcast_S32x1_S32x32768_0_1 _ (ix2 b j) (ix2 b z1) (fun a => match a with
      | ⟨0, _⟩ => by show b.val = if (32 : Nat) = 1 then 0 else b.val; rw [if_neg (by decide)]
      | ⟨1, _⟩ => by show 0 = if (1 : Nat) = 1 then 0 else j.val; rw [if_pos rfl])).trans ?_
    exact broadcastInDim_apply _ bcast_S32_S32x1_0 _ (ix2 b z1) (ix1 b) (fun a => match a with
      | ⟨0, _⟩ => by show b.val = if (32 : Nat) = 1 then 0 else b.val; rw [if_neg (by decide)])
  show shapeCast S32x32768 A3 shapeCasts_S32x512x64_S32x32768 (ix2 b j)
    * broadcastInDim S32x32768 ![0, 1] bcast_S32x1_S32x32768_0_1 (broadcastInDim S32x1 ![0] bcast_S32_S32x1_0 (scale A4)) (ix2 b j) = _
  rw [e1, e2, scale_at]

/-! ## The result buffer after the run -/

/-- The host's last buffer is `tail` of the two arrays as the region left them. -/
theorem result_tail (c : Dev nD) :
    Pipeline.afterTail₀ cfgs (dats m) 0 (V0 m) [hostOps1] c main_v11
      = tail ((dats m 0 c).arrAt 3 cfg0.N) ((dats m 0 c).arrAt 4 cfg0.N) := by
  unfold Pipeline.afterTail₀
  show StableHlo.after hostOps1 _ (Proc.devRef .tc main_v11) = _
  after_results
  have h3 : Pipeline.withArrays (cfgs 0).spec c (V0 m c) (fun w => (dats m 0 c).arrAt w (cfgs 0).N) (Proc.devRef .tc main_v2_0)
      = (dats m 0 c).arrAt 3 cfg0.N :=
    Pipeline.withArrays_arr spec0 launch0.win.arr_inj c (V0 m c) (fun w => (dats m 0 c).arrAt w cfg0.N) 3
  have h4 : Pipeline.withArrays (cfgs 0).spec c (V0 m c) (fun w => (dats m 0 c).arrAt w (cfgs 0).N) (Proc.devRef .tc main_v2_1)
      = (dats m 0 c).arrAt 4 cfg0.N :=
    Pipeline.withArrays_arr spec0 launch0.win.arr_inj c (V0 m c) (fun w => (dats m 0 c).arrAt w cfg0.N) 4
  rw [h3, h4]
  rfl

/-! ## The result as a function of the arguments -/

/-- With the logits and the centres the arguments seen through a change of shape, the tail of `table` and `energy` is
    `result`: row `b`, position `j` is batch element `b`'s table at (j / 64, j % 64) times the inverse root of the table's
    sum of squares plus ε. -/
theorem tail_eq_result (X : S32x1024x512.Idx → EReal) (B : S32768x64.Idx → EReal) (C : S1x512x64.Idx → EReal) :
    tail (table X (shapeCast S32x1024x64 B shapeCasts_S32768x64_S32x1024x64) (shapeCast S512x64 C shapeCasts_S1x512x64_S512x64))
        (energy X (shapeCast S32x1024x64 B shapeCasts_S32768x64_S32x1024x64) (shapeCast S512x64 C shapeCasts_S1x512x64_S512x64))
      = result X B C := by
  funext i
  obtain ⟨b, j, rfl⟩ : ∃ (b : Fin 32) (j : Fin 32768), i = ix2 b j := ⟨i 0, i 1, eq_ix2 i⟩
  rw [tail_at]
  have eB : (fun (n : Fin 1024) (k : Fin 64) => shapeCast S32x1024x64 B shapeCasts_S32768x64_S32x1024x64 (ix3 b n k)) = bnRows B b :=
    funext fun n => funext fun k =>
      shapeCast_apply B shapeCasts_S32768x64_S32x1024x64 (ix3 b n k) (ix2 (flatRow b n) k) (by
        rewrite [Shape.rowMajor_val_two, Shape.rowMajor_val_three]
        show (b.val * 1024 + n.val) * 64 + k.val = (b.val * 1024 + n.val) * 64 + k.val; rfl)
  have eC : (fun (d : Fin 512) (k : Fin 64) => shapeCast S512x64 C shapeCasts_S1x512x64_S512x64 (ix2 d k)) = centres C :=
    funext fun d => funext fun k =>
      shapeCast_apply C shapeCasts_S1x512x64_S512x64 (ix2 d k) (ix3 z1 d k) (by
        rewrite [Shape.rowMajor_val_three, Shape.rowMajor_val_two]
        show (0 * 512 + d.val) * 64 + k.val = d.val * 64 + k.val; omega)
  show vlad (fun n d => X (ix3 b n d)) (fun n k => shapeCast S32x1024x64 B shapeCasts_S32768x64_S32x1024x64 (ix3 b n k))
        (fun d k => shapeCast S512x64 C shapeCasts_S1x512x64_S512x64 (ix2 d k)) (rowOf j) (colOf j)
      * Ideal.rsqrt (sumsq (vlad (fun n d => X (ix3 b n d)) (fun n k => shapeCast S32x1024x64 B shapeCasts_S32768x64_S32x1024x64 (ix3 b n k))
        (fun d k => shapeCast S512x64 C shapeCasts_S1x512x64_S512x64 (ix2 d k))) + eps) = _
  rw [eB, eC]
  rfl

/-- The kernel program's result buffer after the run is `result` of the three arguments. -/
theorem result_value (c : Dev nD) :
    Pipeline.afterTail₀ cfgs (dats m) 0 (V0 m) [hostOps1] c main_v11
      = result (m ((c : Thread nD τ).loc main_arg0)) (m ((c : Thread nD τ).loc main_arg1)) (m ((c : Thread nD τ).loc main_arg2)) := by
  rw [result_tail, final3, final4, V_main_arg0, V_logits, V_centres]
  exact tail_eq_result _ _ _

/-! ## The run, read -/

/-- Every weakly fair execution of the kernel program terminates with the result buffer at `result` of the arguments
    and the arguments unchanged. -/
theorem run : θ_run defs (onTc (τ := τ) (main (F := Ideal))) ⟨m, fun _ => 0, ρ⟩ fun r => ∀ c : Dev nD,
      r.2.mem ((c.tc : Thread nD τ).loc main_v11)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (result_value m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefSide.lean ====
/-
  The reference program's result, read index by index, is `Cert.NetVlad.result` of its three arguments.

  The reference computes the softmax on the [32768, 64] array of logits (row maximum, exponentials, row sum,
  quotient), views it as [32, 1024, 64], sums it over the 1024 rows and contracts it with the descriptors over
  the same axis into a [32, 64, 512] table, subtracts the centres scaled by the summed assignments, scales each
  (batch, cluster) row by the inverse root of its sum of squares over the 512 features, transposes to
  [32, 512, 64], flattens to [32, 32768] and scales each batch row by the inverse root of ITS sum of squares.
  Each stage below is read at an index with explicit coordinates; the only laws used are commutativity of the
  product inside the contraction (the reference multiplies assignment × descriptor) and the re-indexing of the sum
  over the 32768 flat positions as the double sum over 512 × 64.
-/
import proofs.«164488_j25056839204955_2_alg».proof.Proof.Gen.ReferenceIdeal.Read
import proofs.«164488_j25056839204955_2_alg».proof.Proof.Spec

noncomputable section

open scoped BigOperators

namespace Cert.ReferenceIdeal.Bridge

open Cert.ReferenceIdeal Cert.ReferenceIdeal.Gen Cert.ReferenceIdeal.Read
open Idealize.ShloMosaic Idealize.ShloMosaic.ValueIdx Cert.NetVlad

/-- Two indices with the same coordinates, each computing by unfolding, are equal. -/
macro "idx_eq" : tactic => `(tactic| (funext a; apply Fin.ext; first
  | (match a with | ⟨0, _⟩ => rfl | ⟨1, _⟩ => rfl | ⟨2, _⟩ => rfl)
  | (match a with | ⟨0, _⟩ => rfl | ⟨1, _⟩ => rfl)
  | (match a with | ⟨0, _⟩ => rfl)))

variable (x0 : FVec Ideal S32x1024x512 .f32) (x1 : FVec Ideal S32768x64 .f32) (x2 : FVec Ideal S1x512x64 .f32)

/-- The row maximum: the host's fold from −∞, joined once more with −∞. -/
theorem rowmax_at (r : Fin 32768) :
    val_main_v2 (F := Ideal) x1 (ix1 r) = rowMax (fun k => x1 (ix2 r k)) := by
  have hR : S32768x64.Reduces [1] S32768 := by decide
  rw [val_main_v2_apply, val_main_v1_apply, val_main_cst_0_apply]
  unfold val_main_v0
  rw [Host.reduce_eq_fold_single FloatOps.maximumf x1 _ reducesTo_S32768x64_S32768_d1 hR h_S_ (ix1 r)]
  have e : (x1 ∘ hR.lift (ix1 r)) = fun k : Fin 64 => x1 (ix2 r k) :=
    funext fun k => congrArg x1 (by idx_eq)
  rw [e]
  exact max_negInf_rowMax _

/-- The exponentials of a row. -/
theorem expo_at (r : Fin 32768) (k : Fin 64) :
    val_main_v6 (F := Ideal) x1 (ix2 r k) = expo (fun k' => x1 (ix2 r k')) k := by
  rw [val_main_v6_apply, val_main_v5_apply, val_main_v4_apply, val_main_v3_apply,
    show idx_main_v3 (idx_main_v4 (ix2 r k)) = ix1 r from by idx_eq, rowmax_at]
  rfl

/-- The softmax of a row of the [32768, 64] logits. -/
theorem soft_at (r : Fin 32768) (k : Fin 64) :
    val_main_v10 (F := Ideal) x1 (ix2 r k) = soft (fun k' => x1 (ix2 r k')) k := by
  rw [val_main_v10_apply, val_main_v9_apply, val_main_v8_apply,
    show idx_main_v8 (idx_main_v9 (ix2 r k)) = ix1 r from by idx_eq, val_main_v7_apply, val_main_cst_1_apply]
  simp only [show ∀ k' : Fin 64, idx_main_v7 (ix1 r) k' = ix2 r k' from fun k' => by idx_eq, expo_at]
  show Ideal.div _ (Ideal.ofBits .f32 0x00000000#32 + _) = _
  rw [Ideal.ofBits_zero_f32, zero_add]
  rfl

/-- The same seen as [32, 1024, 64]: batch element `b`, row `n`. -/
theorem probs_at (b : Fin 32) (n : Fin 1024) (k : Fin 64) :
    val_main_v11 (F := Ideal) x1 (ix3 b n k) = soft (bnRows x1 b n) k := by
  have e : idx_main_v11 (ix3 b n k) = ix2 (flatRow b n) k := by
    have hb := b.isLt; have hn := n.isLt; have hk := k.isLt
    funext a; apply Fin.ext
    match a with
    | ⟨0, _⟩ => show ((b.val * 1024 + n.val) * 64 + k.val) / 64 = b.val * 1024 + n.val; omega
    | ⟨1, _⟩ => show ((b.val * 1024 + n.val) * 64 + k.val) % 64 = k.val; omega
  rw [val_main_v11_apply, e, soft_at]
  rfl

/-- The assignments summed over the rows of a batch element. -/
theorem asum_at (b : Fin 32) (k : Fin 64) :
    val_main_v12 (F := Ideal) x1 (ix2 b k) = ∑ n : Fin 1024, soft (bnRows x1 b n) k := by
  rw [val_main_v12_apply, val_main_cst_2_apply]
  simp only [show ∀ n : Fin 1024, idx_main_v12 (ix2 b k) n = ix3 b n k from fun n => by idx_eq, probs_at]
  show Ideal.ofBits .f32 0x00000000#32 + _ = _
  rw [Ideal.ofBits_zero_f32, zero_add]

/-- The contraction over the rows: assignments × descriptors. -/
theorem dot_at (b : Fin 32) (k : Fin 64) (d : Fin 512) :
    val_main_v13 (F := Ideal) x0 x1 (ix3 b k d) = ∑ n : Fin 1024, xRows x0 b n d * soft (bnRows x1 b n) k := by
  rw [val_main_v13_apply]
  simp only [show ∀ n : Fin 1024, lidx_main_v13 (ix3 b k d) n = ix3 b n k from fun n => by idx_eq,
    show ∀ n : Fin 1024, ridx_main_v13 (ix3 b k d) n = ix3 b n d from fun n => by idx_eq, probs_at]
  exact Finset.sum_congr rfl fun n _ => mul_comm _ _

/-- The centres, transposed to [64, 512] and broadcast over the batch, are `centres`. -/
theorem centre_at (b : Fin 32) (k : Fin 64) (d : Fin 512) :
    val_main_v19 (F := Ideal) x2 (ix3 b k d) = centres x2 d k := by
  have e : idx_main_v14 (idx_main_v15 (idx_main_v17 (idx_main_v19 (ix3 b k d)))) = ix3 ⟨0, Nat.one_pos⟩ d k := by
    have hd := d.isLt; have hk := k.isLt
    funext a; apply Fin.ext
    match a with
    | ⟨0, _⟩ => rfl
    | ⟨1, _⟩ => show (d.val * 64 + k.val) / 64 % 512 = d.val; omega
    | ⟨2, _⟩ => show (d.val * 64 + k.val) % 64 = k.val; omega
  rw [val_main_v19_apply, val_main_v17_apply, val_main_v15_apply, val_main_v14_apply, e]
  rfl

/-- The residual table, laid out [batch, cluster, feature]. -/
theorem resid_at (b : Fin 32) (k : Fin 64) (d : Fin 512) :
    val_main_v21 (F := Ideal) x0 x1 x2 (ix3 b k d) = resid (xRows x0 b) (bnRows x1 b) (centres x2) d k := by
  rw [val_main_v21_apply, val_main_v20_apply, val_main_v18_apply, val_main_v16_apply,
    show idx_main_v16 (idx_main_v18 (ix3 b k d)) = ix2 b k from by idx_eq, asum_at, centre_at, dot_at]
  rfl

/-- Each (batch, cluster) row normalised over the features. -/
theorem vlad_at (b : Fin 32) (k : Fin 64) (d : Fin 512) :
    val_main_v29 (F := Ideal) x0 x1 x2 (ix3 b k d) = vlad (xRows x0 b) (bnRows x1 b) (centres x2) d k := by
  rw [val_main_v29_apply, val_main_v28_apply, val_main_v27_apply, val_main_v26_apply, val_main_v25_apply,
    val_main_cst_4_apply, val_main_v24_apply,
    show idx_main_v24 (idx_main_v28 (ix3 b k d)) = ix2 b k from by idx_eq, val_main_v23_apply, val_main_cst_3_apply,
    resid_at]
  simp only [show ∀ d' : Fin 512, idx_main_v23 (ix2 b k) d' = ix3 b k d' from fun d' => by idx_eq,
    val_main_v22_apply, resid_at]
  show _ * Ideal.rsqrt ((Ideal.ofBits .f32 0x00000000#32 + _) + _) = _
  rw [Ideal.ofBits_zero_f32, zero_add]
  rfl

/-- The table transposed to [batch, feature, cluster] and flattened. -/
theorem flat_at (b : Fin 32) (j : Fin 32768) :
    val_main_v31 (F := Ideal) x0 x1 x2 (ix2 b j)
      = vlad (xRows x0 b) (bnRows x1 b) (centres x2) (rowOf j) (colOf j) := by
  have e : idx_main_v30 (idx_main_v31 (ix2 b j)) = ix3 b (colOf j) (rowOf j) := by
    have hb := b.isLt; have hj := j.isLt
    funext a; apply Fin.ext
    match a with
    | ⟨0, _⟩ => show (b.val * 32768 + j.val) / 32768 = b.val; omega
    | ⟨1, _⟩ => show (b.val * 32768 + j.val) % 64 = j.val % 64; omega
    | ⟨2, _⟩ => show (b.val * 32768 + j.val) / 64 % 512 = j.val / 64; omega
  rw [val_main_v31_apply, val_main_v30_apply, e, vlad_at]

/-- A batch row's sum of squares over its 32768 entries is the table's. -/
theorem sumsq_at (b : Fin 32) :
    val_main_v33 (F := Ideal) x0 x1 x2 (ix1 b) = sumsq (vlad (xRows x0 b) (bnRows x1 b) (centres x2)) := by
  rw [val_main_v33_apply, val_main_cst_5_apply]
  simp only [show ∀ j : Fin 32768, idx_main_v33 (ix1 b) j = ix2 b j from fun j => by idx_eq,
    val_main_v32_apply, flat_at]
  show Ideal.ofBits .f32 0x00000000#32 + _ = _
  rw [Ideal.ofBits_zero_f32, zero_add]
  exact sum_flat fun d k => vlad (xRows x0 b) (bnRows x1 b) (centres x2) d k * vlad (xRows x0 b) (bnRows x1 b) (centres x2) d k

/-- THE REFERENCE'S RESULT is `result` of the arguments. -/
theorem ref_eq_result : val_main_v39 (F := Ideal) x0 x1 x2 = result x0 x1 x2 := by
  funext i
  obtain ⟨b, j, rfl⟩ : ∃ (b : Fin 32) (j : Fin 32768), i = ix2 b j := ⟨i 0, i 1, eq_ix2 i⟩
  rw [val_main_v39_apply, val_main_v38_apply, val_main_v37_apply, val_main_v36_apply, val_main_v35_apply,
    val_main_cst_6_apply, val_main_v34_apply,
    show idx_main_v34 (idx_main_v38 (ix2 b j)) = ix1 b from by idx_eq, sumsq_at, flat_at]
  rfl

end Cert.ReferenceIdeal.Bridge

end
-- ==== Proof.lean ====
/-
  A NetVLAD head on the TensorCore against its jnp reference, on the extended reals.

  Both programs compute, for each of 32 batch elements, the softmax assignment of 1024 descriptor rows to 64 clusters,
  the assignment-weighted residuals of the 512-feature descriptors against the cluster centres, each cluster's column
  normalised over the features, and the flattened 512 × 64 table normalised once more (`Cert.NetVlad.result`,
  Proof/Spec.lean). The kernel does the first normalisation inside one pipelined region, four batch elements per grid
  point, emitting the table in [batch, feature, cluster] order together with its sum of squares, and leaves the last
  scaling to the host; the reference works in [batch, cluster, feature] order and transposes at the end. On the extended
  reals the two agree by rearrangements that need no finiteness: the product inside the contraction commutes, and the
  sum over the 32768 flat positions is the double sum over features and clusters.

  Proof/Payload.lean reads the kernel body at an index, Proof/Blocks.lean glues the eight blocks into the two output
  arrays, Proof/Tail.lean reads the host operations after the region and states the kernel program's run,
  Proof/RefSide.lean reads the reference's run; here the five claims are assembled. The kernel's idealization rewrote
  nothing, so the conjunct about it is trivial.
-/
import proofs.«164488_j25056839204955_2_alg».proof.Defs
import proofs.«164488_j25056839204955_2_alg».proof.Proof.Gen.Kernel
import proofs.«164488_j25056839204955_2_alg».proof.Proof.Gen.Kernel.Skeleton
import proofs.«164488_j25056839204955_2_alg».proof.Proof.Gen.Kernel.Launch
import proofs.«164488_j25056839204955_2_alg».proof.Proof.Gen.Kernel.Points
import proofs.«164488_j25056839204955_2_alg».proof.Proof.Gen.Kernel.Frame
import proofs.«164488_j25056839204955_2_alg».proof.Proof.Gen.KernelIdeal
import proofs.«164488_j25056839204955_2_alg».proof.Proof.Gen.KernelIdeal.Skeleton
import proofs.«164488_j25056839204955_2_alg».proof.Proof.Gen.KernelIdeal.Launch
import proofs.«164488_j25056839204955_2_alg».proof.Proof.Gen.KernelIdeal.Points
import proofs.«164488_j25056839204955_2_alg».proof.Proof.Gen.KernelIdeal.Frame
import proofs.«164488_j25056839204955_2_alg».proof.Proof.Gen.ReferenceIdeal
import proofs.«164488_j25056839204955_2_alg».proof.Proof.Gen.ReferenceIdeal.Run
import proofs.«164488_j25056839204955_2_alg».proof.Proof.Gen.ReferenceIdeal.Read
import proofs.«164488_j25056839204955_2_alg».proof.Proof.Gen.Pre_finite_inputs
import proofs.«164488_j25056839204955_2_alg».proof.Proof.Tail
import proofs.«164488_j25056839204955_2_alg».proof.Proof.RefSide
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments both programs end with their result buffer at
    `Cert.NetVlad.result` of those arguments. -/
theorem algebraic : Cert.algebraic_KernelIdeal_ReferenceIdeal := by
  intro m ρ m' ρ' _ hagree
  refine ⟨fun c => Cert.NetVlad.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.Bridge.ref_eq_result,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
